-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024 : Shape := ⟨2, ![128, 1024]⟩
abbrev S128x1024x1024 : Shape := ⟨3, ![128, 1024, 1024]⟩
abbrev S_ : Shape := ⟨0, ![]⟩

class Facts : Prop where
  bcast_S_S128x1024 : S_.BroadcastsInDim S128x1024 (![] : Fin 0 → Fin S128x1024.rank)
  reducesTo_S128x1024_S_d0_1 : S128x1024.ReducesTo [0, 1] S_
  h_S_ : 0 < S_.numel
  bcast_S_S128x1024x1024 : S_.BroadcastsInDim S128x1024x1024 (![] : Fin 0 → Fin S128x1024x1024.rank)
  reducesTo_S128x1024x1024_S_d0_1_2 : S128x1024x1024.ReducesTo [0, 1, 2] S_

variable [Facts]

def fn {F : FTy → Type} [FloatOps F] (main_arg0 : FVec F S128x1024 .f32) (main_arg1 : FVec F S128x1024x1024 .f32) : IVec S_ 1 :=
  let main_v0 : FVec F S128x1024 .f32 := Host.absf main_arg0
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_c : IVec S_ 1 := constantI S_ 1 1#1
  let main_v3 : IVec S_ 1 := (fun x v => Host.reduce IntOp.andi x v reducesTo_S128x1024_S_d0_1 h_S_) main_v2 main_c
  let main_v4 : FVec F S128x1024x1024 .f32 := Host.absf main_arg1
  let main_cst_0 : FVec F S_ .f32 := constant S_ .f32 0x7F800000#32
  let main_v5 : FVec F S128x1024x1024 .f32 := broadcastInDim S128x1024x1024 ![] bcast_S_S128x1024x1024 main_cst_0
  let main_v6 : IVec S128x1024x1024 1 := cmpf .olt main_v4 main_v5
  let main_c_1 : IVec S_ 1 := constantI S_ 1 1#1
  let main_v7 : IVec S_ 1 := (fun x v => Host.reduce IntOp.andi x v reducesTo_S128x1024x1024_S_d0_1_2 h_S_) main_v6 main_c_1
  let main_v8 : IVec S_ 1 := andi main_v3 main_v7
  main_v8
-- ==== Kernel.lean ====
abbrev S128x1024 : Shape := ⟨2, ![128, 1024]⟩
abbrev S128x1024x1024 : Shape := ⟨3, ![128, 1024, 1024]⟩
abbrev S128x1x1024 : Shape := ⟨3, ![128, 1, 1024]⟩
abbrev S1x1x1024 : Shape := ⟨3, ![1, 1, 1024]⟩
abbrev S1x1024x1024 : Shape := ⟨3, ![1, 1024, 1024]⟩
abbrev S1x1024 : Shape := ⟨2, ![1, 1024]⟩
abbrev S1x1024x1 : Shape := ⟨3, ![1, 1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S128x1024, .f32⟩
  | .hbm, ⟨1, _⟩ => ⟨S128x1024x1024, .f32⟩
  | .hbm, ⟨2, _⟩ => ⟨S128x1x1024, .f32⟩
  | .hbm, ⟨3, _⟩ => ⟨S128x1x1024, .f32⟩
  | .hbm, ⟨4, _⟩ => ⟨S128x1024x1024, .f32⟩
  | .hbm, ⟨5, _⟩ => ⟨S128x1024, .f32⟩
  | .local _ .vmem, ⟨0, _⟩ => ⟨S1x1x1024, .f32⟩
  | .local _ .vmem, ⟨1, _⟩ => ⟨S1x1x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024x1024, .f32⟩
  | .local _ .vmem, ⟨7, _⟩ => ⟨S1x1024x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S128x1024_S128x1x1024 : S128x1024.ShapeCasts S128x1x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1x1024 : S1x1x1024.ShapeCasts S1x1x1024
  natLt_1_32 : 1 < 32
  shapeCasts_S1x1x1024_S1x1024 : S1x1x1024.ShapeCasts S1x1024
  shapeCasts_S1x1024_S1x1024x1 : S1x1024.ShapeCasts S1x1024x1
  shapeCasts_S1x1024_S1x1x1024 : S1x1024.ShapeCasts S1x1x1024
  inb_S1x1024x1024_S1x1024x1024_0_0_0 : ∀ a, (![0, 0, 0] : Fin 3 → Nat) a + S1x1024x1024.size a ≤ S1x1024x1024.size a
  h_S1x1024x1024 : 0 < S1x1024x1024.numel
  broadcasts_S1x1024x1_S1x1024x1024 : S1x1024x1.Broadcasts S1x1024x1024
  broadcasts_S1x1x1024_S1x1024x1024 : S1x1x1024.Broadcasts S1x1024x1024
  shapeCasts_S128x1x1024_S128x1024 : S128x1x1024.ShapeCasts S128x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024.size a ≤ S128x1x1024.size a
  hwx0_0 : ∀ i : grid0.Coords, EltTy.bits .f32 = 32 ∨ (Rect.block (s := S128x1x1024) S1x1x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S128x1024x1024.size a
  hwx0_1 : ∀ i : grid0.Coords, EltTy.bits .f32 = 32 ∨ (Rect.block (s := S128x1024x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S128x1x1024.size a
  hwx0_2 : ∀ i : grid0.Coords, EltTy.bits .f32 = 32 ∨ (Rect.block (s := S128x1x1024) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S128x1024x1024.size a
  hwx0_3 : ∀ i : grid0.Coords, EltTy.bits .f32 = 32 ∨ (Rect.block (s := S128x1024x1024) S1x1024x1024.size (cc0_transform_3 i) (hinb0_3 i)).WholeWords (EltTy.packing .f32)

variable [Facts₀]

abbrev win0_0 : Pipeline.Window sig grid0 :=
  Pipeline.Window.ofSpec (Memref.whole main_v0) S1x1x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x1x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S128x1024 : Shape := ⟨2, ![128, 1024]⟩
abbrev S128x1024x1024 : Shape := ⟨3, ![128, 1024, 1024]⟩
abbrev S_ : Shape := ⟨0, ![]⟩
abbrev S128x1024x1 : Shape := ⟨3, ![128, 1024, 1]⟩
abbrev S128x1x1024 : Shape := ⟨3, ![128, 1, 1024]⟩

abbrev nBuf : Space → Nat
  | .hbm => 15
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024x1024, .f32⟩
  | .hbm, ⟨2, _⟩ => ⟨S_, .f32⟩
  | .hbm, ⟨3, _⟩ => ⟨S128x1024, .f32⟩
  | .hbm, ⟨4, _⟩ => ⟨S128x1024, .f32⟩
  | .hbm, ⟨5, _⟩ => ⟨S_, .f32⟩
  | .hbm, ⟨6, _⟩ => ⟨S128x1024, .f32⟩
  | .hbm, ⟨7, _⟩ => ⟨S128x1024, .i1⟩
  | .hbm, ⟨8, _⟩ => ⟨S128x1024, .f32⟩
  | .hbm, ⟨9, _⟩ => ⟨S128x1024x1, .f32⟩
  | .hbm, ⟨10, _⟩ => ⟨S128x1024x1024, .f32⟩
  | .hbm, ⟨11, _⟩ => ⟨S128x1024x1024, .f32⟩
  | .hbm, ⟨12, _⟩ => ⟨S128x1x1024, .f32⟩
  | .hbm, ⟨13, _⟩ => ⟨S128x1024x1024, .f32⟩
  | .hbm, ⟨14, _⟩ => ⟨S128x1024x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  bcast_S_S128x1024 : S_.BroadcastsInDim S128x1024 (![] : Fin 0 → Fin S128x1024.rank)
  bcast_S128x1024_S128x1024x1_0_1 : S128x1024.BroadcastsInDim S128x1024x1 (![0, 1] : Fin 2 → Fin S128x1024x1.rank)
  bcast_S128x1024x1_S128x1024x1024_0_1_2 : S128x1024x1.BroadcastsInDim S128x1024x1024 (![0, 1, 2] : Fin 3 → Fin S128x1024x1024.rank)
  bcast_S128x1024_S128x1x1024_0_2 : S128x1024.BroadcastsInDim S128x1x1024 (![0, 2] : Fin 2 → Fin S128x1x1024.rank)
  bcast_S128x1x1024_S128x1024x1024_0_1_2 : S128x1x1024.BroadcastsInDim S128x1024x1024 (![0, 1, 2] : Fin 3 → Fin S128x1024x1024.rank)

variable [Facts₀]

class Facts : Prop extends Facts₀ where

variable [Facts]
-- ==== Proof.LibWidenedBit.lean ====
/-
  A comparison bit turned into a float two ways.

  A one-bit word is 0 or 1. Widened to 32 bits with zeros and read as a SIGNED integer it is still 0 or 1 (the sign bit
  of the wide word is clear), which is the bit read UNSIGNED. On the extended reals an integer-to-float conversion is
  the integer itself, so the two conversions agree for every float format, entry by entry and for whole arrays.
-/
import Idealize.ShloMosaic.PureOps.Ideal
import Idealize.ShloMosaic.Lib.ValueIdx

noncomputable section

namespace Cert.LibWidenedBit

open Idealize.ShloMosaic

/-- A one-bit word widened to 32 bits with zeros is the same integer read signed as the bit read unsigned. -/
theorem toInt_widen_bit : ∀ c : BitVec 1, (c.setWidth 32).toInt = (c.toNat : ℤ) := by decide

/-- On the extended reals, for any float format: the signed reading of a bit widened to 32 bits is the unsigned reading
    of the bit. -/
theorem sitofp_widen_bit (φ : FTy) (c : BitVec 1) :
    FloatOps.sitofp (F := Ideal) φ (c.setWidth 32) = FloatOps.uitofp (F := Ideal) φ c := by
  show ((((c.setWidth 32).toInt : ℤ) : ℝ) : EReal) = (((c.toNat : ℕ) : ℝ) : EReal)
  rw [toInt_widen_bit, Int.cast_natCast]

/-- The same for a whole array of bits of any shape: widening every bit to 32 bits and converting signed is converting
    the bits unsigned. -/
theorem sitofp_extui_bit {s : Shape} (φ : FTy) (x : IVec s 1) (h : 1 < 32) :
    (sitofp φ (extui 32 x h) : FVec Ideal s φ) = uitofp φ x :=
  funext fun i => sitofp_widen_bit φ (x i)

end Cert.LibWidenedBit

end
-- ==== Proof.GatedMoments.lean ====
/-
  The two moments a rectifier propagates, as functions of the argument arrays on the extended reals.

  For a batch of 128 mean rows `mu[b, ·]` of length 1024 and covariance planes `sigma[b, ·, ·]`:
    * the rectified mean        `rectMean mu (b, j)          = max (mu (b, j)) 0`;
    * the gate                  `gate z                      = 1 if z > 0, else 0` — the rectifier's derivative at `z`;
    * the gated covariance      `gatedCov mu sigma (b, i, j) = (sigma (b, i, j) · gate (mu (b, i))) · gate (mu (b, j))`.
  The products are grouped as written (first the row's gate, then the column's): both programs multiply in this
  order, so no law of the extended reals beyond reading each operation is used, and nothing here asks the entries
  to be finite.

  The gate is a comparison bit turned into a float. One program widens the bit to 32 bits and reads the word
  SIGNED, the other reads the bit UNSIGNED; a one-bit word widened with zeros is 0 or 1 either way (`gate_signed`, from
  Proof/LibWidenedBit.lean).
-/
import proofs.«129656_j841813590061_1_alg».proof.Proof.LibWidenedBit
import Idealize.ShloMosaic.PureOps.Ideal
import Idealize.ShloMosaic.Lib.ValueIdx

noncomputable section

namespace Cert.GatedMoments

open Idealize.ShloMosaic Idealize.ShloMosaic.ValueIdx

/-- The shape of the means: 128 rows of 1024. -/
abbrev SMean : Shape := ⟨2, ![128, 1024]⟩
/-- The shape of the covariances: 128 planes of 1024 × 1024. -/
abbrev SCov : Shape := ⟨3, ![128, 1024, 1024]⟩

/-- The f32 word of zero, read on the extended reals. -/
abbrev zeroWord : Ideal .f32 := FloatOps.ofBits (F := Ideal) .f32 0x00000000#32

/-- The rectifier's derivative at `z` as a float: the bit of `z > 0`, read unsigned — 1 where `z` is positive, 0 elsewhere. -/
def gate (z : Ideal .f32) : Ideal .f32 := FloatOps.uitofp (F := Ideal) .f32 (FloatOps.cmpf (F := Ideal) .ogt z zeroWord)

/-- The rectified mean: each entry against zero. -/
def rectMean (mu : SMean.Idx → Ideal .f32) : SMean.Idx → Ideal .f32 :=
  fun i => max (mu i) zeroWord

/-- The gated covariance: entry (b, i, j) times the gate of mean (b, i), then times the gate of mean (b, j). -/
def gatedCov (mu : SMean.Idx → Ideal .f32) (sigma : SCov.Idx → Ideal .f32) : SCov.Idx → Ideal .f32 :=
  fun i => sigma i * gate (mu (ix2 (i 0) (i 1))) * gate (mu (ix2 (i 0) (i 2)))

/-- The gate through a signed 32-bit word: widening the comparison bit with zeros and reading the word signed
    gives the gate. -/
theorem gate_signed (z : Ideal .f32) :
    FloatOps.sitofp (F := Ideal) .f32 ((FloatOps.cmpf (F := Ideal) .ogt z zeroWord).setWidth 32) = gate z := by
  unfold gate
  exact Cert.LibWidenedBit.sitofp_widen_bit .f32 _

end Cert.GatedMoments

end
-- ==== Proof.BlockPayload.lean ====
/-
  What the kernel body stores at one grid point, read entry by entry on the extended reals.

  At a point the body holds one mean row `x` as a [1, 1, 1024] block and one covariance plane `s` as a [1, 1024, 1024]
  block. It stores
    * into the mean output's block, entry (0, 0, k):  max (x k) 0;
    * into the covariance output's block, entry (0, r, k):  (s (r, k) · gate (x r)) · gate (x k),
  where the gate row is re-laid twice: flattened to [1, 1024], then once as a column [1, 1024, 1] spread along the last
  axis (so (0, r, k) reads entry r) and once as a row [1, 1, 1024] spread along the middle axis (so (0, r, k) reads
  entry k). Each re-laying keeps the row-major position of every entry; each spread repeats the unit axis.
-/
import proofs.«129656_j841813590061_1_alg».proof.Proof.Gen.KernelIdeal.Skeleton
import proofs.«129656_j841813590061_1_alg».proof.Proof.GatedMoments
import Idealize.ShloMosaic.Lib.Pipeline.Value

noncomputable section

namespace Cert.KernelIdeal.BlockPayload

open Cert.KernelIdeal Cert.KernelIdeal.Gen Idealize.ShloMosaic Idealize.ShloMosaic.ValueIdx Cert.GatedMoments

variable {α : Type}

/-! ## The re-layings of a row of 1024 entries, read at coordinates -/

/-- [1, 1, 1024] flattened to [1, 1024]: entry (b, k) is entry (b, 0, k). -/
theorem flatten_apply (x : S1x1x1024.Idx → α) (h : S1x1x1024.ShapeCasts S1x1024) (b : Fin 1) (k : Fin 1024) :
    shapeCast S1x1024 x h (ix2 b k) = x (ix3 b 0 k) :=
  shapeCast_apply x h (ix2 b k) (ix3 b 0 k) (by
    rw [Shape.rowMajor_val_three, Shape.rowMajor_val_two]
    show (b.val * 1 + 0) * 1024 + k.val = b.val * 1024 + k.val
    omega)

/-- [1, 1024] laid as a column [1, 1024, 1]: entry (b, r, 0) is entry (b, r). -/
theorem column_apply (x : S1x1024.Idx → α) (h : S1x1024.ShapeCasts S1x1024x1) (b : Fin 1) (r : Fin 1024) (u : Fin 1) :
    shapeCast S1x1024x1 x h (ix3 b r u) = x (ix2 b r) :=
  shapeCast_apply x h (ix3 b r u) (ix2 b r) (by
    rw [Shape.rowMajor_val_three, Shape.rowMajor_val_two]
    show b.val * 1024 + r.val = (b.val * 1024 + r.val) * 1 + u.val
    have := u.isLt
    omega)

/-- [1, 1024] laid as a row [1, 1, 1024]: entry (b, 0, k) is entry (b, k). -/
theorem row_apply (x : S1x1024.Idx → α) (h : S1x1024.ShapeCasts S1x1x1024) (b : Fin 1) (u : Fin 1) (k : Fin 1024) :
    shapeCast S1x1x1024 x h (ix3 b u k) = x (ix2 b k) :=
  shapeCast_apply x h (ix3 b u k) (ix2 b k) (by
    rw [Shape.rowMajor_val_three, Shape.rowMajor_val_two]
    show b.val * 1024 + k.val = (b.val * 1 + u.val) * 1024 + k.val
    have := u.isLt
    omega)

/-- A column [1, 1024, 1] spread along the last axis: entry (b, r, k) is the column's entry (b, r, 0). -/
theorem spreadColumn_apply (x : S1x1024x1.Idx → α) (h : S1x1024x1.Broadcasts S1x1024x1024) (b : Fin 1) (r k : Fin 1024) :
    broadcastTo S1x1024x1024 x h (ix3 b r k) = x (ix3 b r 0) :=
  broadcastTo_apply x h (ix3 b r k) (ix3 b r 0) (fun a => match a with
    | ⟨0, _⟩ => by show b.val = if (1 : Nat) = 1 then 0 else b.val; rw [if_pos rfl]; have := b.isLt; omega
    | ⟨1, _⟩ => by show r.val = if (1024 : Nat) = 1 then 0 else r.val; rw [if_neg (by decide)]
    | ⟨2, _⟩ => by show 0 = if (1 : Nat) = 1 then 0 else k.val; rw [if_pos rfl])

/-- A row [1, 1, 1024] spread along the middle axis: entry (b, r, k) is the row's entry (b, 0, k). -/
theorem spreadRow_apply (x : S1x1x1024.Idx → α) (h : S1x1x1024.Broadcasts S1x1024x1024) (b : Fin 1) (r k : Fin 1024) :
    broadcastTo S1x1024x1024 x h (ix3 b r k) = x (ix3 b 0 k) :=
  broadcastTo_apply x h (ix3 b r k) (ix3 b 0 k) (fun a => match a with
    | ⟨0, _⟩ => by show b.val = if (1 : Nat) = 1 then 0 else b.val; rw [if_pos rfl]; have := b.isLt; omega
    | ⟨1, _⟩ => by show 0 = if (1 : Nat) = 1 then 0 else r.val; rw [if_pos rfl]
    | ⟨2, _⟩ => by show k.val = if (1024 : Nat) = 1 then 0 else k.val; rw [if_neg (by decide)])

/-! ## The body's gate row -/

/-- The gate of every entry of the loaded mean row, as the body computes it: compare with a spread zero, widen the
    bit to 32 bits, read the word signed. -/
def gateRow (x : Vec Ideal S1x1x1024 .f32) : FVec Ideal S1x1x1024 .f32 :=
  sitofp .f32 (extui 32 (cmpf .ogt (k0_pay1 (F := Ideal) x) (broadcast S1x1x1024 (Scalar.ofBits (F := Ideal) .f32 0x00000000#32))) natLt_1_32)

/-- Entry by entry it is the gate. -/
theorem gateRow_apply (x : Vec Ideal S1x1x1024 .f32) (y : S1x1x1024.Idx) : gateRow x y = gate (x y) := by
  unfold gateRow k0_pay1
  rw [shapeCast_self]
  exact gate_signed (x y)

/-! ## The two stored values -/

/-- The value stored into the mean output's block is the loaded row against zero, entry by entry. -/
theorem meanPayload_apply (x : Vec Ideal S1x1x1024 .f32) (y : S1x1x1024.Idx) :
    k0_pay2 (F := Ideal) x y = max (x y) zeroWord := by
  unfold k0_pay2 k0_pay1
  rw [shapeCast_self]
  rfl

/-- The value stored into the covariance output's block, at (b, r, k): the loaded plane's entry times the gate of the
    row's entry r, then times the gate of the row's entry k. -/
theorem covPayload_apply (x : Vec Ideal S1x1x1024 .f32) (s : Vec Ideal S1x1024x1024 .f32) (b : Fin 1) (r k : Fin 1024) :
    k0_pay3 (F := Ideal) x s (ix3 b r k) = s (ix3 b r k) * gate (x (ix3 b 0 r)) * gate (x (ix3 b 0 k)) := by
  show s (ix3 b r k)
      * broadcastTo S1x1024x1024 (shapeCast S1x1024x1 (shapeCast S1x1024 (gateRow x) shapeCasts_S1x1x1024_S1x1024) shapeCasts_S1x1024_S1x1024x1) broadcasts_S1x1024x1_S1x1024x1024 (ix3 b r k)
      * broadcastTo S1x1024x1024 (shapeCast S1x1x1024 (shapeCast S1x1024 (gateRow x) shapeCasts_S1x1x1024_S1x1024) shapeCasts_S1x1024_S1x1x1024) broadcasts_S1x1x1024_S1x1024x1024 (ix3 b r k)
    = _
  rw [spreadColumn_apply, column_apply, flatten_apply, spreadRow_apply, row_apply, flatten_apply, gateRow_apply, gateRow_apply]

end Cert.KernelIdeal.BlockPayload

end
-- ==== Proof.KernelMoments.lean ====
/-
  What the kernel's program leaves in its two results, as functions of its two arguments, on the extended reals.

  The program re-lays the means [128, 1024] as [128, 1, 1024], runs the body once per batch row b = 0 … 127, and
  re-lays the mean output [128, 1, 1024] back to [128, 1024]. Every operand is cut the same way: point b owns row b of
  the means (a [1, 1, 1024] block), plane b of the covariances (a [1, 1024, 1024] block), and the same blocks of the two
  outputs. So
    * entry (b, u, k) of a block at point t sits at (t, u, k) of its array;
    * what point t writes into the mean output is block t of `meanRows mu`  — (b, 0, k) ↦ max (mu (b, k)) 0;
    * what point t writes into the covariance output is block t of `gatedCov mu sigma`;
    * the 128 blocks cover each output array (index i lies in the block of point i 0), so after the run the arrays ARE
      those functions, and the last re-laying of the first reads (b, k) at (b, 0, k): the rectified mean.
-/
import proofs.«129656_j841813590061_1_alg».proof.Proof.Gen.KernelIdeal.Frame
import proofs.«129656_j841813590061_1_alg».proof.Proof.BlockPayload
import Idealize.ShloMosaic.Lib.Pipeline.Value
import Idealize.ShloMosaic.Lib.StableHlo.Run

noncomputable section

namespace Cert.KernelIdeal.Moments

open Cert.KernelIdeal Cert.KernelIdeal.Gen Idealize.ShloMosaic Idealize.ShloMosaic.TcCoe Idealize.SL.Sem Idealize.ShloMosaic.ValueIdx
open Cert.GatedMoments Cert.KernelIdeal.BlockPayload Idealize.ShloMosaic.StableHlo
open Idealize.ShloMosaic.Pipeline (Dat)

variable (m : (ℓ : Loc nD τ sig) → Buf (Elt Ideal) ℓ) (ρ : Dev nD → PrngReg)

/-! ## The means as the region finds them -/

/-- The re-laid means [128, 1, 1024] the region is entered with: the argument, shape-cast. -/
theorem entry_mean (c : Dev nD) :
    (V m c main_v0 : S128x1x1024.Idx → Ideal .f32)
      = shapeCast S128x1x1024 (m ((c : Thread nD τ).loc main_arg0)) shapeCasts_S128x1024_S128x1x1024 := by
  show StableHlo.after hostOps0 (fun b => m (c, b)) (Proc.devRef .tc main_v0) = _
  after_results
  rfl

/-- Entry (b, u, k) of the re-laid means is mean (b, k). -/
theorem entry_mean_apply (c : Dev nD) (b : Fin 128) (u : Fin 1) (k : Fin 1024) :
    (V m c main_v0 : S128x1x1024.Idx → Ideal .f32) (ix3 b u k) = m ((c : Thread nD τ).loc main_arg0) (ix2 b k) :=
  (congrFun (entry_mean m c) (ix3 b u k)).trans
    (shapeCast_apply _ shapeCasts_S128x1024_S128x1x1024 (ix3 b u k) (ix2 b k) (by
      rw [Shape.rowMajor_val_two, Shape.rowMajor_val_three]
      show b.val * 1024 + k.val = (b.val * 1 + u.val) * 1024 + k.val
      have := u.isLt
      omega))

/-! ## Where a block sits -/

theorem zero_offset : (![0, 0, 0] : Fin 3 → Nat) = fun _ => 0 := funext fun a => by fin_cases a <;> rfl

/-- The four operands are cut alike: at point t every block index is (t, 0, 0). -/
theorem block_index : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- A point is a batch row. -/
theorem point_lt (t : Fin cfg0.N) : t.val < 128 := lt_of_lt_of_eq t.isLt N_0

/-- The batch row of a point. -/
abbrev rowOf (t : Fin cfg0.N) : Fin 128 := ⟨t.val, point_lt t⟩

/-- Entry (b0, u, k) of the mean input's block at point t sits at (t, u, k). -/
theorem emb_meanIn (t : Fin cfg0.N) (b0 u : Fin 1) (k : Fin 1024) :
    ((cfg0.win 0).blk t).view.emb (ix3 b0 u k) = ix3 (rowOf t) u k := by
  obtain ⟨e0, e1, e2, -⟩ := block_index t
  funext a; apply Fin.ext
  match a with
  | ⟨0, _⟩ => show win0_0.index t (0 : Fin 3) * 1 + 1 * b0.val = t.val; have := b0.isLt; omega
  | ⟨1, _⟩ => show win0_0.index t (1 : Fin 3) * 1 + 1 * u.val = u.val; omega
  | ⟨2, _⟩ => show win0_0.index t (2 : Fin 3) * 1024 + 1 * k.val = k.val; omega

/-- Entry (b0, r, k) of the covariance input's block at point t sits at (t, r, k). -/
theorem emb_covIn (t : Fin cfg0.N) (b0 : Fin 1) (r k : Fin 1024) :
    ((cfg0.win 1).blk t).view.emb (ix3 b0 r k) = ix3 (rowOf t) r k := by
  obtain ⟨-, -, -, e0, e1, e2, -⟩ := block_index t
  funext a; apply Fin.ext
  match a with
  | ⟨0, _⟩ => show win0_1.index t (0 : Fin 3) * 1 + 1 * b0.val = t.val; have := b0.isLt; omega
  | ⟨1, _⟩ => show win0_1.index t (1 : Fin 3) * 1024 + 1 * r.val = r.val; omega
  | ⟨2, _⟩ => show win0_1.index t (2 : Fin 3) * 1024 + 1 * k.val = k.val; omega

/-- Entry (b0, u, k) of the mean output's block at point t sits at (t, u, k). -/
theorem emb_meanOut (t : Fin cfg0.N) (b0 u : Fin 1) (k : Fin 1024) :
    ((cfg0.win 2).blk t).view.emb (ix3 b0 u k) = ix3 (rowOf t) u k := by
  obtain ⟨-, -, -, -, -, -, e0, e1, e2, -⟩ := block_index t
  funext a; apply Fin.ext
  match a with
  | ⟨0, _⟩ => show win0_2.index t (0 : Fin 3) * 1 + 1 * b0.val = t.val; have := b0.isLt; omega
  | ⟨1, _⟩ => show win0_2.index t (1 : Fin 3) * 1 + 1 * u.val = u.val; omega
  | ⟨2, _⟩ => show win0_2.index t (2 : Fin 3) * 1024 + 1 * k.val = k.val; omega

/-- Entry (b0, r, k) of the covariance output's block at point t sits at (t, r, k). -/
theorem emb_covOut (t : Fin cfg0.N) (b0 : Fin 1) (r k : Fin 1024) :
    ((cfg0.win 3).blk t).view.emb (ix3 b0 r k) = ix3 (rowOf t) r k := by
  obtain ⟨-, -, -, -, -, -, -, -, -, e0, e1, e2⟩ := block_index t
  funext a; apply Fin.ext
  match a with
  | ⟨0, _⟩ => show win0_3.index t (0 : Fin 3) * 1 + 1 * b0.val = t.val; have := b0.isLt; omega
  | ⟨1, _⟩ => show win0_3.index t (1 : Fin 3) * 1024 + 1 * r.val = r.val; omega
  | ⟨2, _⟩ => show win0_3.index t (2 : Fin 3) * 1024 + 1 * k.val = k.val; omega

/-! ## The input blocks, read -/

/-- The mean input's block at point t is row t of the means. -/
theorem meanBlock_apply (c : Dev nD) (t : Fin cfg0.N) (b0 u : Fin 1) (k : Fin 1024) :
    (iblk m c 0 t : S1x1x1024.Idx → Ideal .f32) (ix3 b0 u k) = m ((c : Thread nD τ).loc main_arg0) (ix2 (rowOf t) k) := by
  show (V m c main_v0 : S128x1x1024.Idx → Ideal .f32) (((cfg0.win 0).blk t).view.emb (ix3 b0 u k)) = _
  rw [emb_meanIn]
  exact entry_mean_apply m c (rowOf t) u k

/-- The covariance input's block at point t is plane t of the covariances. -/
theorem covBlock_apply (c : Dev nD) (t : Fin cfg0.N) (b0 : Fin 1) (r k : Fin 1024) :
    (iblk m c 1 t : S1x1024x1024.Idx → Ideal .f32) (ix3 b0 r k) = m ((c : Thread nD τ).loc main_arg1) (ix3 (rowOf t) r k) := by
  show (V m c main_arg1 : S128x1024x1024.Idx → Ideal .f32) (((cfg0.win 1).blk t).view.emb (ix3 b0 r k)) = _
  rw [emb_covIn, V_main_arg1]

/-! ## What a point writes back -/

/-- The mean output's array [128, 1, 1024] as a function of the means: (b, 0, k) ↦ max (mu (b, k)) 0. -/
def meanRows (mu : SMean.Idx → Ideal .f32) : S128x1x1024.Idx → Ideal .f32 :=
  fun i => max (mu (ix2 (i 0) (i 2))) zeroWord

/-- Point t writes block t of `meanRows` into the mean output. -/
theorem flushed_mean (c : Dev nD) (t : Fin cfg0.N) :
    (dats m 0 c).flushed 2 t = ((cfg0.win 2).blk t).view.read (Elt Ideal) (meanRows (m ((c : Thread nD τ).loc main_arg0))) := by
  show (cfg0.win 2).cut (grid0.coords t) ((dats m 0 c).after 2 t) = _
  rw [after0_2]
  unfold out0_2
  rw [View.canon_unit_zero zero_offset]
  simp only [View.ld_unit_zero (S := S1x1x1024) zero_offset]
  funext j
  obtain ⟨b0, u, k, rfl⟩ : ∃ (b0 u : Fin 1) (k : Fin 1024), j = ix3 b0 u k := ⟨j 0, j 1, j 2, eq_ix3 j⟩
  show k0_pay2 (F := Ideal) (iblk m c 0 t) (ix3 b0 u k)
    = meanRows (m ((c : Thread nD τ).loc main_arg0)) (((cfg0.win 2).blk t).view.emb (ix3 b0 u k))
  rw [emb_meanOut]
  refine (meanPayload_apply (iblk m c 0 t) (ix3 b0 u k)).trans ?_
  rw [meanBlock_apply]
  rfl

/-- Point t writes block t of the gated covariance into the covariance output. -/
theorem flushed_cov (c : Dev nD) (t : Fin cfg0.N) :
    (dats m 0 c).flushed 3 t = ((cfg0.win 3).blk t).view.read (Elt Ideal)
      (gatedCov (m ((c : Thread nD τ).loc main_arg0)) (m ((c : Thread nD τ).loc main_arg1))) := by
  show (cfg0.win 3).cut (grid0.coords t) ((dats m 0 c).after 3 t) = _
  rw [after0_3]
  unfold out0_3
  rw [View.canon_unit_zero zero_offset]
  simp only [View.ld_unit_zero (S := S1x1x1024) zero_offset, View.ld_unit_zero (S := S1x1024x1024) zero_offset]
  funext j
  obtain ⟨b0, r, k, rfl⟩ : ∃ (b0 : Fin 1) (r k : Fin 1024), j = ix3 b0 r k := ⟨j 0, j 1, j 2, eq_ix3 j⟩
  show k0_pay3 (F := Ideal) (iblk m c 0 t) (iblk m c 1 t) (ix3 b0 r k)
    = gatedCov (m ((c : Thread nD τ).loc main_arg0)) (m ((c : Thread nD τ).loc main_arg1)) (((cfg0.win 3).blk t).view.emb (ix3 b0 r k))
  rw [emb_covOut]
  refine (covPayload_apply (iblk m c 0 t) (iblk m c 1 t) b0 r k).trans ?_
  rw [covBlock_apply, meanBlock_apply, meanBlock_apply]
  rfl

end Cert.KernelIdeal.Moments

end
-- ==== Proof.KernelRun.lean ====
/-
  The kernel's program, run: its first result ends at the rectified mean and its second at the gated covariance of
  the two arguments, which end unchanged.

  Each output array is cut into 128 blocks along its leading axis, one per point, so index i lies in the block of
  point i 0 and the blocks cover the array; with what each point writes back known to be a block of one function of
  the arguments, the array after the run is that function. The mean output [128, 1, 1024] is then re-laid as
  [128, 1024]: entry (b, k) reads entry (b, 0, k), which is max (mu (b, k)) 0.
-/
import proofs.«129656_j841813590061_1_alg».proof.Proof.KernelMoments

noncomputable section

namespace Cert.KernelIdeal.Moments

open Cert.KernelIdeal Cert.KernelIdeal.Gen Idealize.ShloMosaic Idealize.ShloMosaic.TcCoe Idealize.SL.Sem Idealize.ShloMosaic.ValueIdx
open Cert.GatedMoments Cert.KernelIdeal.BlockPayload Idealize.ShloMosaic.StableHlo
open Idealize.ShloMosaic.Pipeline (Dat)

variable (m : (ℓ : Loc nD τ sig) → Buf (Elt Ideal) ℓ) (ρ : Dev nD → PrngReg)

/-! ## The blocks cover the output arrays -/

/-- An index of the mean output lies in point t's block iff every coordinate lies in the block's range on its axis. -/
theorem mem_meanBlock (t : Fin cfg0.N) (i : S128x1x1024.Idx) :
    i ∈ ((cfg0.win 2).blk t).view.set ↔ ∀ a : Fin 3, win0_2.index t a * S1x1x1024.size a ≤ (i a).val
      ∧ (i a).val < win0_2.index t a * S1x1x1024.size a + S1x1x1024.size a := by
  show i ∈ ((View.whole main_v1_0).slice (win0_2.rect t)).set ↔ _
  rw [View.set_slice_whole, Rect.mem_set_unit]
  exact Iff.rfl

/-- An index of the covariance output lies in point t's block iff every coordinate lies in the block's range on its axis. -/
theorem mem_covBlock (t : Fin cfg0.N) (i : S128x1024x1024.Idx) :
    i ∈ ((cfg0.win 3).blk t).view.set ↔ ∀ a : Fin 3, win0_3.index t a * S1x1024x1024.size a ≤ (i a).val
      ∧ (i a).val < win0_3.index t a * S1x1024x1024.size a + S1x1024x1024.size a := by
  show i ∈ ((View.whole main_v1_1).slice (win0_3.rect t)).set ↔ _
  rw [View.set_slice_whole, Rect.mem_set_unit]
  exact Iff.rfl

/-- Index i of the mean output lies in the block of point i 0. -/
theorem cover_mean (i : S128x1x1024.Idx) :
    ∃ t : Fin cfg0.N, (cfg0.win 2).flush t = true ∧ i ∈ ((cfg0.win 2).blk t).view.set := by
  have hi0 : (i 0).val < 128 := (i 0).isLt
  have hi1 : (i 1).val < 1 := (i 1).isLt
  have hi2 : (i 2).val < 1024 := (i 2).isLt
  obtain ⟨t, ht⟩ : ∃ t : Fin cfg0.N, t.val = (i 0).val := ⟨⟨(i 0).val, lt_of_lt_of_eq hi0 N_0.symm⟩, rfl⟩
  obtain ⟨-, -, -, -, -, -, e0, e1, e2, -⟩ := block_index t
  refine ⟨t, flush0_2 t, ?_⟩
  rw [mem_meanBlock]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 1024 ≤ (i 2).val ∧ (i 2).val < win0_2.index t (2 : Fin 3) * 1024 + 1024; omega

/-- Index i of the covariance output lies in the block of point i 0. -/
theorem cover_cov (i : S128x1024x1024.Idx) :
    ∃ t : Fin cfg0.N, (cfg0.win 3).flush t = true ∧ i ∈ ((cfg0.win 3).blk t).view.set := by
  have hi0 : (i 0).val < 128 := (i 0).isLt
  have hi1 : (i 1).val < 1024 := (i 1).isLt
  have hi2 : (i 2).val < 1024 := (i 2).isLt
  obtain ⟨t, ht⟩ : ∃ t : Fin cfg0.N, t.val = (i 0).val := ⟨⟨(i 0).val, lt_of_lt_of_eq hi0 N_0.symm⟩, rfl⟩
  obtain ⟨-, -, -, -, -, -, -, -, -, e0, e1, e2⟩ := block_index t
  refine ⟨t, flush0_3 t, ?_⟩
  rw [mem_covBlock]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 1024 ≤ (i 2).val ∧ (i 2).val < win0_3.index t (2 : Fin 3) * 1024 + 1024; omega

/-! ## The output arrays after the run -/

/-- The mean output's array after the run. -/
theorem final_mean (c : Dev nD) :
    (dats m 0 c).arrAt 2 cfg0.N = meanRows (m ((c : Thread nD τ).loc main_arg0)) :=
  (dats m 0 c).arrAt_eq_of_cover 2 (meanRows (m ((c : Thread nD τ).loc main_arg0))) (fun t _ => flushed_mean m c t) cover_mean

/-- The covariance output's array after the run. -/
theorem final_cov (c : Dev nD) :
    (dats m 0 c).arrAt 3 cfg0.N = gatedCov (m ((c : Thread nD τ).loc main_arg0)) (m ((c : Thread nD τ).loc main_arg1)) :=
  (dats m 0 c).arrAt_eq_of_cover 3 (gatedCov (m ((c : Thread nD τ).loc main_arg0)) (m ((c : Thread nD τ).loc main_arg1)))
    (fun t _ => flushed_cov m c t) cover_cov

/-! ## The last re-laying -/

/-- The program's first result: the mean output re-laid [128, 1, 1024] → [128, 1024] is the rectified mean. -/
theorem tail_mean (c : Dev nD) :
    Pipeline.afterTail₀ cfgs (dats m) 0 (V0 m) [hostOps1] c main_v2 = rectMean (m ((c : Thread nD τ).loc main_arg0)) := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1_0)
      = meanRows (m ((c : Thread nD τ).loc main_arg0)) :=
    (Pipeline.withArrays_arr spec0 launch0.win.arr_inj c (V0 m c) (fun w => (dats m 0 c).arrAt w cfg0.N) 2).trans (final_mean m c)
  funext i
  obtain ⟨b, k, rfl⟩ : ∃ (b : Fin 128) (k : Fin 1024), i = ix2 b k := ⟨i 0, i 1, eq_ix2 i⟩
  show shapeCast S128x1024 (Pipeline.withArrays (cfgs 0).spec c (V0 m c) (fun w => (dats m 0 c).arrAt w (cfgs 0).N) (Proc.devRef .tc main_v1_0))
      shapeCasts_S128x1x1024_S128x1024 (ix2 b k) = _
  rw [e]
  refine (shapeCast_apply _ shapeCasts_S128x1x1024_S128x1024 (ix2 b k) (ix3 b 0 k) (by
    rw [Shape.rowMajor_val_two, Shape.rowMajor_val_three]
    show (b.val * 1 + 0) * 1024 + k.val = b.val * 1024 + k.val
    omega)).trans ?_
  rfl

/-! ## The run -/

/-- Every weakly fair execution of the kernel's program terminates, faults nowhere, and ends with the first result at
    the rectified mean and the second at the gated covariance of the argument arrays, the arguments unchanged. -/
theorem run : θ_run defs (onTc (τ := τ) (main (F := Ideal))) ⟨m, fun _ => 0, ρ⟩ fun r => ∀ c : Dev nD,
      r.2.mem ((c.tc : Thread nD τ).loc main_v2) = rectMean (m ((c.tc : Thread nD τ).loc main_arg0))
      ∧ r.2.mem ((c.tc : Thread nD τ).loc main_v1_1)
          = gatedCov (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨
      ((h c).2 main_v2 (Pipeline.mem_restRefs_of main_v2 (by decide) (by decide))).trans (tail_mean m c),
      ((h c).1 3).trans (final_cov m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.KernelIdeal.Moments

end
-- ==== Proof.ReferenceMoments.lean ====
/-
  The reference program's two results are the rectified mean and the gated covariance.

  Its result for the means is the maximum of each entry with a spread zero. Its result for the covariances is the
  covariance array times the gate laid as a column ([128, 1024] → [128, 1024, 1] → spread along the last axis: entry
  (b, i, j) reads the gate of mean (b, i)), then times the gate laid as a row ([128, 1024] → [128, 1, 1024] → spread along
  the middle axis: entry (b, i, j) reads the gate of mean (b, j)). Read one operation at a time, index by index.
-/
import proofs.«129656_j841813590061_1_alg».proof.Proof.Gen.ReferenceIdeal.Read
import proofs.«129656_j841813590061_1_alg».proof.Proof.GatedMoments

noncomputable section

namespace Cert.ReferenceIdeal.Moments

open Cert.ReferenceIdeal Cert.ReferenceIdeal.Read Idealize.ShloMosaic Idealize.ShloMosaic.ValueIdx Cert.GatedMoments

/-- The column layout followed by its spread reads mean (b, i) at (b, i, j). -/
theorem column_index (i : S128x1024x1024.Idx) : idx_main_v4 (idx_main_v5 i) = ix2 (i 0) (i 1) :=
  funext fun a => Fin.ext (by match a with | ⟨0, _⟩ => rfl | ⟨1, _⟩ => rfl)

/-- The row layout followed by its spread reads mean (b, j) at (b, i, j). -/
theorem row_index (i : S128x1024x1024.Idx) : idx_main_v7 (idx_main_v8 i) = ix2 (i 0) (i 2) :=
  funext fun a => Fin.ext (by match a with | ⟨0, _⟩ => rfl | ⟨1, _⟩ => rfl)

/-- The reference's first result is the rectified mean of its first argument. -/
theorem mean_eq (x0 : FVec Ideal S128x1024 .f32) : val_main_v0 (F := Ideal) x0 = rectMean x0 := by
  funext i
  rw [val_main_v0_apply, val_main_call0_v0_apply, val_main_call0_cst_apply]
  rfl

/-- The reference's second result is the gated covariance of its two arguments. -/
theorem cov_eq (x0 : FVec Ideal S128x1024 .f32) (x1 : FVec Ideal S128x1024x1024 .f32) :
    val_main_v9 (F := Ideal) x0 x1 = gatedCov x0 x1 := by
  funext i
  simp only [val_main_v9_apply, val_main_v6_apply, val_main_v5_apply, val_main_v4_apply, val_main_v8_apply,
    val_main_v7_apply, val_main_v3_apply, val_main_v2_apply, val_main_v1_apply, val_main_cst_apply,
    column_index, row_index]
  rfl

end Cert.ReferenceIdeal.Moments

end
-- ==== Proof.lean ====
/-
  A rectifier's moment propagation: the kernel's program and the plain reference compute the same two arrays on
  the extended reals.

  For means `mu` [128, 1024] and covariances `sigma` [128, 1024, 1024] both programs return
    * the rectified mean          max (mu (b, j)) 0, and
    * the gated covariance        (sigma (b, i, j) · g (b, i)) · g (b, j),   g (b, i) = 1 if mu (b, i) > 0, else 0
  (Proof/GatedMoments.lean). The two multiply in the same order, so each side is read operation by operation and no
  law of the extended reals that fails at an infinity is needed: the finiteness of the inputs is never used.

  The kernel's program cuts every operand into one block per batch row; what a grid point stores is read entry by entry
  in Proof/BlockPayload.lean, the blocks are put back together into whole arrays in Proof/KernelMoments.lean and
  Proof/KernelRun.lean (which also reads the re-laying of the means before the region and of the mean output after it).
  The reference's two results are read one operation at a time in Proof/ReferenceMoments.lean. The one place the two
  spell a step differently is the gate: the kernel widens the comparison bit to 32 bits and reads the word signed, the
  reference reads the bit unsigned; both are 0 or 1.

  The three frames are the generated ones (the reference's is its generated run with the results dropped), and the
  idealization rewrote no operation, so there is nothing to preserve.
-/
import proofs.«129656_j841813590061_1_alg».proof.Defs
import proofs.«129656_j841813590061_1_alg».proof.Proof.Gen.Kernel
import proofs.«129656_j841813590061_1_alg».proof.Proof.Gen.Kernel.Frame
import proofs.«129656_j841813590061_1_alg».proof.Proof.Gen.KernelIdeal
import proofs.«129656_j841813590061_1_alg».proof.Proof.Gen.KernelIdeal.Frame
import proofs.«129656_j841813590061_1_alg».proof.Proof.Gen.ReferenceIdeal
import proofs.«129656_j841813590061_1_alg».proof.Proof.Gen.ReferenceIdeal.Run
import proofs.«129656_j841813590061_1_alg».proof.Proof.Gen.ReferenceIdeal.Read
import proofs.«129656_j841813590061_1_alg».proof.Proof.Gen.Pre_finite_inputs
import proofs.«129656_j841813590061_1_alg».proof.Proof.KernelRun
import proofs.«129656_j841813590061_1_alg».proof.Proof.ReferenceMoments
import Idealize.ShloMosaic.Adequacy
import Idealize.ShloMosaic.Init

noncomputable section

namespace Cert.Proof

open Idealize.ShloMosaic Idealize.SL.Sem

/-- The kernel's program as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories that agree on the two arguments, the kernel's program ends with the rectified mean and the gated
    covariance of them, and so does the reference. -/
theorem algebraic : Cert.algebraic_KernelIdeal_ReferenceIdeal := by
  intro m ρ m' ρ' _ hagree
  refine ⟨_, _, Cert.KernelIdeal.Moments.run m ρ, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v0_eq, Cert.ReferenceIdeal.Moments.mean_eq, (hagree c).1]
  · rw [(h c).2.1, Cert.ReferenceIdeal.Read.val_main_v9_eq, Cert.ReferenceIdeal.Moments.cov_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
